-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1000000 32) (main_arg2 : FVec F S1000000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S25000x64 : Shape := ⟨2, ![25000, 64]⟩

abbrev nBuf : Space → Nat
  | .hbm => 75
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1000000, .i32⟩
  | .hbm, ⟨7, _⟩ => ⟨S1000000, .i32⟩
  | .hbm, ⟨8, _⟩ => ⟨S1100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S_, .f32⟩
  | .hbm, ⟨13, _⟩ => ⟨S100000, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S_, .i32⟩
  | .hbm, ⟨55, _⟩ => ⟨S1100000, .i32⟩
  | .hbm, ⟨56, _⟩ => ⟨S1100000, .i1⟩
  | .hbm, ⟨57, _⟩ => ⟨S_, .i32⟩
  | .hbm, ⟨58, _⟩ => ⟨S1100000, .i32⟩
  | .hbm, ⟨59, _⟩ => ⟨S1100000, .i32⟩
  | .hbm, ⟨60, _⟩ => ⟨S1100000, .i32⟩
  | .hbm, ⟨61, _⟩ => ⟨S1100000x1, .i32⟩
  | .hbm, ⟨62, _⟩ => ⟨S1100000x64, .f32⟩
  | .hbm, ⟨63, _⟩ => ⟨S1100000x1, .f32⟩
  | .hbm, ⟨64, _⟩ => ⟨S1100000x64, .f32⟩
  | .hbm, ⟨65, _⟩ => ⟨S1100000x64, .f32⟩
  | .hbm, ⟨66, _⟩ => ⟨S_, .f32⟩
  | .hbm, ⟨67, _⟩ => ⟨S100000x64, .f32⟩
  | .hbm, ⟨68, _⟩ => ⟨S1100000x1, .i32⟩
  | .hbm, ⟨69, _⟩ => ⟨S100000x64, .f32⟩
  | .hbm, ⟨70, _⟩ => ⟨S64x64, .f32⟩
  | .hbm, ⟨71, _⟩ => ⟨S100000x64, .bf16⟩
  | .hbm, ⟨72, _⟩ => ⟨S64x64, .bf16⟩
  | .hbm, ⟨73, _⟩ => ⟨S1x64, .f32⟩
  | .hbm, ⟨74, _⟩ => ⟨S100000x64, .f32⟩
  | .local _ .vmem, ⟨0, _⟩ => ⟨S25000x64, .bf16⟩
  | .local _ .vmem, ⟨1, _⟩ => ⟨S25000x64, .bf16⟩
  | .local _ .vmem, ⟨2, _⟩ => ⟨S64x64, .bf16⟩
  | .local _ .vmem, ⟨3, _⟩ => ⟨S1x64, .f32⟩
  | .local _ .vmem, ⟨4, _⟩ => ⟨S25000x64, .f32⟩
  | .local _ .vmem, ⟨5, _⟩ => ⟨S25000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  transposes_S64x64_S64x64_1_0 : S64x64.Transposes [1, 0] S64x64
  bitsLt_bf16_f32 : FTy.bits .bf16 < FTy.bits .f32
  shapeCasts_S64_S1x64 : S64.ShapeCasts S1x64
  inb_S25000x64_S25000x64_0_0 : ∀ a, (![0, 0] : Fin 2 → Nat) a + S25000x64.size a ≤ S25000x64.size a
  h_S25000x64 : 0 < S25000x64.numel
  shapeCasts_S25000x64_S25000x64 : S25000x64.ShapeCasts S25000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S25000x64_S64x64_S25000x64_1_0_0_1_n_n_wf : DotDims.WF S25000x64 S64x64 S25000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S100000x64.size a
  hwx0_0 : ∀ i : grid0.Coords, EltTy.bits .bf16 = 32 ∨ (Rect.block (s := S100000x64) S25000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S25000x64.size a ≤ S100000x64.size a
  hwx0_3 : ∀ i : grid0.Coords, EltTy.bits .f32 = 32 ∨ (Rect.block (s := S100000x64) S25000x64.size (cc0_transform_3 i) (hinb0_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf

abbrev win0_0 : Pipeline.Window sig grid0 :=
  Pipeline.Window.ofSpec (Memref.whole main_v49) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S25000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1000000, .i32⟩
  | .hbm, ⟨7, _⟩ => ⟨S1000000, .i32⟩
  | .hbm, ⟨8, _⟩ => ⟨S1100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S_, .f32⟩
  | .hbm, ⟨13, _⟩ => ⟨S100000, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S_, .i32⟩
  | .hbm, ⟨55, _⟩ => ⟨S1100000, .i32⟩
  | .hbm, ⟨56, _⟩ => ⟨S1100000, .i1⟩
  | .hbm, ⟨57, _⟩ => ⟨S_, .i32⟩
  | .hbm, ⟨58, _⟩ => ⟨S1100000, .i32⟩
  | .hbm, ⟨59, _⟩ => ⟨S1100000, .i32⟩
  | .hbm, ⟨60, _⟩ => ⟨S1100000, .i32⟩
  | .hbm, ⟨61, _⟩ => ⟨S1100000x1, .i32⟩
  | .hbm, ⟨62, _⟩ => ⟨S1100000x64, .f32⟩
  | .hbm, ⟨63, _⟩ => ⟨S1100000x1, .f32⟩
  | .hbm, ⟨64, _⟩ => ⟨S1100000x64, .f32⟩
  | .hbm, ⟨65, _⟩ => ⟨S1100000x64, .f32⟩
  | .hbm, ⟨66, _⟩ => ⟨S_, .f32⟩
  | .hbm, ⟨67, _⟩ => ⟨S100000x64, .f32⟩
  | .hbm, ⟨68, _⟩ => ⟨S1100000x1, .i32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Grid.lean ====
/-
  The grid: four points, and where each window's block sits at each of them.
-/
import proofs.«168241_j47364899340492_1_alg».proof.Proof.Gen.KernelIdeal.Frame

noncomputable section

namespace Cert.KernelIdeal.Hand

open Cert.KernelIdeal Cert.KernelIdeal.Gen Idealize.ShloMosaic Idealize.ShloMosaic.TcCoe Idealize.SL.Sem

/-- The zero offset of a whole-block access, as a constant function. -/
theorem hz : (![0, 0] : Fin 2 → Nat) = fun _ => 0 := funext fun a => by fin_cases a <;> rfl

/-- The printed index maps over the four points: the feature window and the result window sit at block row t, the weight and
    bias windows at their only block. -/
theorem idx_facts (t : Fin cfg0.N) :
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 := by
  rcases fin_N0 t with rfl | rfl | rfl | rfl <;> decide

end Cert.KernelIdeal.Hand

end
-- ==== Proof.HostPrefix.lean ====
/-
  The host operations that run before the grid, stretch by stretch.

  The program's host prefix is five stretches of operations: the edge lists with self loops, the edge weights with ones appended
  and the degree by scatter-add (18 operations); the first `where` (3); the comparison and the reciprocal square root (5); the
  second `where` (3); and the gathers, the products, the scatter-add of the messages, the transpose, the two casts and the
  reshape (40).  The contents of the buffers after each stretch are named, so that every later statement speaks about one
  short stretch at a time.  After the fourth stretch the buffers the last stretch reads hold what the reference's stages of the
  same names hold, as functions of the same argument arrays: the two programs spell these operations identically.
-/
import proofs.«168241_j47364899340492_1_alg».proof.Proof.Gen.KernelIdeal.Frame
import proofs.«168241_j47364899340492_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

/-- Running one list of operations and then another is running their concatenation. -/
theorem after_append (A B : List (HloOp τ sig (Elt Ideal))) (W : Valuation τ sig (Elt Ideal)) :
    after (A ++ B) W = after B (after A W) := by
  induction A generalizing W with
  | nil => rfl
  | cons op A ih => exact ih (op.result W)

variable (m : (ℓ : Loc nD τ sig) → Buf (Elt Ideal) ℓ)

/-- The buffers after the first stretch (the edge lists, the weights, the degree, its comparison with zero). -/
def W0 (c : Dev nD) : Valuation τ sig (Elt Ideal) := after hostOps0 (fun b => m (c, b))
/-- The buffers after the first `where`. -/
def W1 (c : Dev nD) : Valuation τ sig (Elt Ideal) := after hostOps0_1 (W0 m c)
/-- The buffers after the second comparison and the reciprocal square root. -/
def W2 (c : Dev nD) : Valuation τ sig (Elt Ideal) := after hostOps0_2 (W1 m c)
/-- The buffers after the second `where`. -/
def W3 (c : Dev nD) : Valuation τ sig (Elt Ideal) := after hostOps0_3 (W2 m c)

/-- What the grid finds in a buffer is what the last stretch leaves there, run from the buffers after the fourth. -/
theorem V_eq (c : Dev nD) (b : Ref sig .tc) : V m c b = after hostOps0_4 (W3 m c) (Proc.devRef .tc b) := by
  unfold W3 W2 W1 W0
  dsimp only [V]
  simp only [List.flatten_cons, List.flatten_nil, List.append_nil, after_append]

/-! ## The first stretch, against the reference's stages -/

theorem w0_v3 (c : Dev nD) : W0 m c (Proc.devRef .tc main_v3) = (Cert.ReferenceIdeal.Read.val_main_v3 (F := Ideal) (m ((c : Thread nD τ).loc main_arg1)) : (⟨S1100000, .i32⟩ : BufTy).Contents (Elt Ideal)) := by
  unfold W0; simp only [hostOps0]; after_results_simp; rfl
theorem w0_v6 (c : Dev nD) : W0 m c (Proc.devRef .tc main_v6) = (Cert.ReferenceIdeal.Read.val_main_v6 (F := Ideal) (m ((c : Thread nD τ).loc main_arg1)) : (⟨S1100000, .i32⟩ : BufTy).Contents (Elt Ideal)) := by
  unfold W0; simp only [hostOps0]; after_results_simp; rfl
theorem w0_v8 (c : Dev nD) : W0 m c (Proc.devRef .tc main_v8) = (Cert.ReferenceIdeal.Read.val_main_v8 (F := Ideal) (m ((c : Thread nD τ).loc main_arg2)) : (⟨S1100000, .f32⟩ : BufTy).Contents (Elt Ideal)) := by
  unfold W0; simp only [hostOps0]; after_results_simp; rfl
theorem w0_v11 (c : Dev nD) : W0 m c (Proc.devRef .tc main_v11) = (Cert.ReferenceIdeal.Read.val_main_v11 (F := Ideal) (m ((c : Thread nD τ).loc main_arg1)) (m ((c : Thread nD τ).loc main_arg2)) : (⟨S100000, .f32⟩ : BufTy).Contents (Elt Ideal)) := by
  unfold W0; simp only [hostOps0]; after_results_simp; rfl
theorem w0_v13 (c : Dev nD) : W0 m c (Proc.devRef .tc main_v13) = (Cert.ReferenceIdeal.Read.val_main_v13 (F := Ideal) (m ((c : Thread nD τ).loc main_arg1)) (m ((c : Thread nD τ).loc main_arg2)) : (⟨S100000, .i1⟩ : BufTy).Contents (Elt Ideal)) := by
  unfold W0; simp only [hostOps0]; after_results_simp; rfl
theorem w0_cst_2 (c : Dev nD) : W0 m c (Proc.devRef .tc main_cst_2) = (Cert.ReferenceIdeal.Read.val_main_cst_2 (F := Ideal) : (⟨S_, .f32⟩ : BufTy).Contents (Elt Ideal)) := by
  unfold W0; simp only [hostOps0]; after_results_simp; rfl
theorem w0_arg0 (c : Dev nD) : W0 m c (Proc.devRef .tc main_arg0) = (m ((c : Thread nD τ).loc main_arg0)) := by
  unfold W0; simp only [hostOps0]; after_results_simp
theorem w0_arg3 (c : Dev nD) : W0 m c (Proc.devRef .tc main_arg3) = (m ((c : Thread nD τ).loc main_arg3)) := by
  unfold W0; simp only [hostOps0]; after_results_simp
theorem w0_arg4 (c : Dev nD) : W0 m c (Proc.devRef .tc main_arg4) = (m ((c : Thread nD τ).loc main_arg4)) := by
  unfold W0; simp only [hostOps0]; after_results_simp

/-! ## The two `where`s and what lies between them -/

/-- After the first `where`: the degree where it is positive, one elsewhere. -/
theorem w1_v14 (c : Dev nD) : W1 m c (Proc.devRef .tc main_v14) = (Cert.ReferenceIdeal.Read.val_main_v14 (F := Ideal) (m ((c : Thread nD τ).loc main_arg1)) (m ((c : Thread nD τ).loc main_arg2)) : (⟨S100000, .f32⟩ : BufTy).Contents (Elt Ideal)) := by
  unfold W1; simp only [hostOps0_1]; after_results_simp
  simp only [cast_eq, id_eq]
  rw [w0_v13, w0_v11, w0_cst_2]
  rfl
theorem w1_v11 (c : Dev nD) : W1 m c (Proc.devRef .tc main_v11) = (Cert.ReferenceIdeal.Read.val_main_v11 (F := Ideal) (m ((c : Thread nD τ).loc main_arg1)) (m ((c : Thread nD τ).loc main_arg2)) : (⟨S100000, .f32⟩ : BufTy).Contents (Elt Ideal)) := by
  unfold W1; simp only [hostOps0_1]; after_results_simp; exact w0_v11 m c

/-- After the third stretch: the second comparison of the degree with zero, and the reciprocal square root. -/
theorem w2_v16 (c : Dev nD) : W2 m c (Proc.devRef .tc main_v16) = (Cert.ReferenceIdeal.Read.val_main_v16 (F := Ideal) (m ((c : Thread nD τ).loc main_arg1)) (m ((c : Thread nD τ).loc main_arg2)) : (⟨S100000, .i1⟩ : BufTy).Contents (Elt Ideal)) := by
  unfold W2; simp only [hostOps0_2]; after_results_simp
  rw [w1_v11]
  rfl
theorem w2_v17 (c : Dev nD) : W2 m c (Proc.devRef .tc main_v17) = (Cert.ReferenceIdeal.Read.val_main_v17 (F := Ideal) (m ((c : Thread nD τ).loc main_arg1)) (m ((c : Thread nD τ).loc main_arg2)) : (⟨S100000, .f32⟩ : BufTy).Contents (Elt Ideal)) := by
  unfold W2; simp only [hostOps0_2]; after_results_simp
  rw [w1_v14]
  rfl
theorem w2_cst_4 (c : Dev nD) : W2 m c (Proc.devRef .tc main_cst_4) = (Cert.ReferenceIdeal.Read.val_main_cst_4 (F := Ideal) : (⟨S_, .f32⟩ : BufTy).Contents (Elt Ideal)) := by
  unfold W2; simp only [hostOps0_2]; after_results_simp; rfl

/-- After the second `where`: the reciprocal square root of the degree where it is positive, zero elsewhere. -/
theorem w3_v18 (c : Dev nD) : W3 m c (Proc.devRef .tc main_v18) = (Cert.ReferenceIdeal.Read.val_main_v18 (F := Ideal) (m ((c : Thread nD τ).loc main_arg1)) (m ((c : Thread nD τ).loc main_arg2)) : (⟨S100000, .f32⟩ : BufTy).Contents (Elt Ideal)) := by
  unfold W3; simp only [hostOps0_3]; after_results_simp
  simp only [cast_eq, id_eq]
  rw [w2_v16, w2_v17, w2_cst_4]
  rfl

/-! ## What the three short stretches leave alone -/

theorem w3_v3 (c : Dev nD) : W3 m c (Proc.devRef .tc main_v3) = (Cert.ReferenceIdeal.Read.val_main_v3 (F := Ideal) (m ((c : Thread nD τ).loc main_arg1)) : (⟨S1100000, .i32⟩ : BufTy).Contents (Elt Ideal)) := by
  unfold W3 W2 W1; simp only [hostOps0_1, hostOps0_2, hostOps0_3]; after_results_simp; exact w0_v3 m c
theorem w3_v6 (c : Dev nD) : W3 m c (Proc.devRef .tc main_v6) = (Cert.ReferenceIdeal.Read.val_main_v6 (F := Ideal) (m ((c : Thread nD τ).loc main_arg1)) : (⟨S1100000, .i32⟩ : BufTy).Contents (Elt Ideal)) := by
  unfold W3 W2 W1; simp only [hostOps0_1, hostOps0_2, hostOps0_3]; after_results_simp; exact w0_v6 m c
theorem w3_v8 (c : Dev nD) : W3 m c (Proc.devRef .tc main_v8) = (Cert.ReferenceIdeal.Read.val_main_v8 (F := Ideal) (m ((c : Thread nD τ).loc main_arg2)) : (⟨S1100000, .f32⟩ : BufTy).Contents (Elt Ideal)) := by
  unfold W3 W2 W1; simp only [hostOps0_1, hostOps0_2, hostOps0_3]; after_results_simp; exact w0_v8 m c
theorem w3_arg0 (c : Dev nD) : W3 m c (Proc.devRef .tc main_arg0) = (m ((c : Thread nD τ).loc main_arg0)) := by
  unfold W3 W2 W1; simp only [hostOps0_1, hostOps0_2, hostOps0_3]; after_results_simp; exact w0_arg0 m c
theorem w3_arg3 (c : Dev nD) : W3 m c (Proc.devRef .tc main_arg3) = (m ((c : Thread nD τ).loc main_arg3)) := by
  unfold W3 W2 W1; simp only [hostOps0_1, hostOps0_2, hostOps0_3]; after_results_simp; exact w0_arg3 m c
theorem w3_arg4 (c : Dev nD) : W3 m c (Proc.devRef .tc main_arg4) = (m ((c : Thread nD τ).loc main_arg4)) := by
  unfold W3 W2 W1; simp only [hostOps0_1, hostOps0_2, hostOps0_3]; after_results_simp; exact w0_arg4 m c

end Cert.KernelIdeal.Entry

end
-- ==== Proof.Entry.lean ====
/-
  The three arrays the kernel's grid finds when it starts.

  The last stretch of host operations gathers the normalisation factors and the feature rows along the edges, multiplies them,
  scatter-adds the messages into the aggregated node features, transposes the weights, casts both to bf16 (the identity on the
  extended reals) and reshapes the bias to one row.  Run from buffers that hold the reference's stages (the edge lists, the
  weights, the inverse square-root degrees), it leaves in the feature window's array the reference's aggregated-features stage
  of the same arguments, in the weight window's array the reference's transposed-weights stage, and in the bias window's array
  the bias read as a [1, 64] array.  The scatter and the gathers are never opened: the two programs spell them identically.
-/
import proofs.«168241_j47364899340492_1_alg».proof.Proof.HostPrefix

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The aggregated node features: the reference's stage of that name, of the kernel's own argument arrays. -/
def agg (c : Dev nD) : S100000x64.Idx → EReal :=
  Cert.ReferenceIdeal.Read.val_main_v47 (F := Ideal) (m ((c : Thread nD τ).loc main_arg0)) (m ((c : Thread nD τ).loc main_arg1)) (m ((c : Thread nD τ).loc main_arg2))

/-- The transposed weights: the reference's stage of that name, of the kernel's own weight array. -/
def wt (c : Dev nD) : S64x64.Idx → EReal :=
  Cert.ReferenceIdeal.Read.val_main_v48 (F := Ideal) (m ((c : Thread nD τ).loc main_arg3))

/-- `agg` is the reference's aggregated-features stage. -/
theorem agg_def (c : Dev nD) : agg m c = Cert.ReferenceIdeal.Read.val_main_v47 (F := Ideal) (m ((c : Thread nD τ).loc main_arg0)) (m ((c : Thread nD τ).loc main_arg1)) (m ((c : Thread nD τ).loc main_arg2)) := rfl

/-- `wt` is the reference's transposed-weights stage. -/
theorem wt_def (c : Dev nD) : wt m c = Cert.ReferenceIdeal.Read.val_main_v48 (F := Ideal) (m ((c : Thread nD τ).loc main_arg3)) := rfl

set_option maxHeartbeats 4000000 in
/-- The feature window's array at region entry is the aggregated features (cast to bf16). -/
theorem entry_agg (c : Dev nD) :
    (V m c main_v49 : S100000x64.Idx → EReal)
      = truncf (F := Ideal) (s := S100000x64) (φ := .f32) .bf16 (agg m c) bitsLt_bf16_f32 := by
  rw [V_eq]
  simp only [hostOps0_4]
  after_results_simp
  rw [w3_v3, w3_v6, w3_v8, w3_v18, w3_arg0]
  rfl

set_option maxHeartbeats 4000000 in
/-- The weight window's array at region entry is the transposed weights (cast to bf16). -/
theorem entry_wt (c : Dev nD) :
    (V m c main_v50 : S64x64.Idx → EReal)
      = truncf (F := Ideal) (s := S64x64) (φ := .f32) .bf16 (wt m c) bitsLt_bf16_f32 := by
  rw [V_eq]
  simp only [hostOps0_4]
  after_results_simp
  rw [w3_arg3]
  rfl

set_option maxHeartbeats 4000000 in
/-- The bias window's array at region entry is the bias reshaped to one row. -/
theorem entry_bias (c : Dev nD) :
    (V m c main_v51 : S1x64.Idx → EReal)
      = shapeCast S1x64 ((m ((c : Thread nD τ).loc main_arg4)) : S64.Idx → EReal) shapeCasts_S64_S1x64 := by
  rw [V_eq]
  simp only [hostOps0_4]
  after_results_simp
  rw [w3_arg4]
  rfl

-- From here on the two arrays are opaque: nothing below depends on how they are computed, and an entry of either is never
-- evaluated.
attribute [irreducible] agg wt

end Cert.KernelIdeal.Entry

end
-- ==== Proof.BlockReads.lean ====
/-
  The three input blocks of a grid point, read at an entry.

  Point t reads rows 25000·t … 25000·t + 24999 of the aggregated features (cast to bf16, the identity on the extended reals), the
  whole transposed weight matrix, and the bias as one row.
-/
import proofs.«168241_j47364899340492_1_alg».proof.Proof.Grid
import proofs.«168241_j47364899340492_1_alg».proof.Proof.Entry
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.KernelIdeal.Entry

variable (m : (ℓ : Loc nD τ sig) → Buf (Elt Ideal) ℓ)

/-- The feature window's block at point t is read off the aggregated features (cast to bf16). -/
theorem feat_block (c : Dev nD) (t : Fin cfg0.N) :
    iblk m c 0 t = ((cfg0.win 0).blk t).view.read (Elt Ideal)
      (truncf (F := Ideal) (s := S100000x64) (φ := .f32) .bf16 (agg m c) bitsLt_bf16_f32) :=
  congrArg (((cfg0.win 0).blk t).view.read (Elt Ideal)) (entry_agg m c)

/-- The weight window's block is read off the transposed weights (cast to bf16). -/
theorem wt_block (c : Dev nD) (t : Fin cfg0.N) :
    iblk m c 1 t = ((cfg0.win 1).blk t).view.read (Elt Ideal)
      (truncf (F := Ideal) (s := S64x64) (φ := .f32) .bf16 (wt m c) bitsLt_bf16_f32) :=
  congrArg (((cfg0.win 1).blk t).view.read (Elt Ideal)) (entry_wt m c)

/-- The bias window's block is read off the bias as one row. -/
theorem bias_block (c : Dev nD) (t : Fin cfg0.N) :
    iblk m c 2 t = ((cfg0.win 2).blk t).view.read (Elt Ideal)
      (shapeCast S1x64 (m ((c : Thread nD τ).loc main_arg4) : S64.Idx → EReal) shapeCasts_S64_S1x64) :=
  congrArg (((cfg0.win 2).blk t).view.read (Elt Ideal)) (entry_bias m c)

/-- A block of a [100000, 64] array at point t, read at (p, k), is the array at the block's embedding of (p, k). -/
theorem read0_apply (t : Fin cfg0.N) (f : S100000x64.Idx → EReal) (p : Fin 25000) (k : Fin 64) :
    (((cfg0.win 0).blk t).view.read (Elt Ideal) f : Vec Ideal S25000x64 .bf16) (ix2 p k)
      = f (((cfg0.win 0).blk t).view.emb (ix2 p k)) := rfl

/-- The same for the one block of a [64, 64] array. -/
theorem read1_apply (t : Fin cfg0.N) (f : S64x64.Idx → EReal) (k : Fin 64) (q : Fin 64) :
    (((cfg0.win 1).blk t).view.read (Elt Ideal) f : Vec Ideal S64x64 .bf16) (ix2 k q)
      = f (((cfg0.win 1).blk t).view.emb (ix2 k q)) := rfl

/-- The same for the one block of a [1, 64] array. -/
theorem read2_apply (t : Fin cfg0.N) (f : S1x64.Idx → EReal) (q : Fin 64) :
    (((cfg0.win 2).blk t).view.read (Elt Ideal) f : Vec Ideal S1x64 .f32) (ix2 (0 : Fin 1) q)
      = f (((cfg0.win 2).blk t).view.emb (ix2 (0 : Fin 1) q)) := rfl

/-- The feature window's block at point t, read at (p, k), is the aggregated features at row 25000·t + p. -/
theorem feat_block_apply (c : Dev nD) (t : Fin cfg0.N) (p : Fin 25000) (k : Fin 64) (r : Fin 100000)
    (hr : r.val = 25000 * t.val + p.val) :
    (iblk m c 0 t : Vec Ideal S25000x64 .bf16) (ix2 p k) = agg m c (ix2 r k) := by
  obtain ⟨e0, e1, -⟩ := idx_facts t
  have hemb : ((cfg0.win 0).blk t).view.emb (ix2 p k) = ix2 r k := by
    funext a
    apply Fin.ext
    match a with
    | ⟨0, _⟩ => show win0_0.index t (0 : Fin 2) * 25000 + 1 * p.val = r.val; rw [e0, hr]; omega
    | ⟨1, _⟩ => show win0_0.index t (1 : Fin 2) * 64 + 1 * k.val = k.val; rw [e1]; omega
  rw [feat_block, read0_apply, ValueIdx.truncf_apply, hemb]

/-- The weight window's one block, read at (k, q), is the transposed weights at (k, q). -/
theorem wt_block_apply (c : Dev nD) (t : Fin cfg0.N) (k : Fin 64) (q : Fin 64) :
    (iblk m c 1 t : Vec Ideal S64x64 .bf16) (ix2 k q) = wt m c (ix2 k q) := by
  obtain ⟨-, -, e0, e1, -⟩ := idx_facts t
  have hemb : ((cfg0.win 1).blk t).view.emb (ix2 k q) = ix2 k q := by
    funext a
    apply Fin.ext
    match a with
    | ⟨0, _⟩ => show win0_1.index t (0 : Fin 2) * 64 + 1 * k.val = k.val; rw [e0]; omega
    | ⟨1, _⟩ => show win0_1.index t (1 : Fin 2) * 64 + 1 * q.val = q.val; rw [e1]; omega
  rw [wt_block, read1_apply, ValueIdx.truncf_apply, hemb]

/-- The bias window's one block, read at (0, q), is entry q of the bias. -/
theorem bias_block_apply (c : Dev nD) (t : Fin cfg0.N) (q : Fin 64) :
    (iblk m c 2 t : Vec Ideal S1x64 .f32) (ix2 (0 : Fin 1) q) = (m ((c : Thread nD τ).loc main_arg4) : S64.Idx → EReal) (ix1 q) := by
  obtain ⟨-, -, -, -, e0, e1, -⟩ := idx_facts t
  have hemb : ((cfg0.win 2).blk t).view.emb (ix2 (0 : Fin 1) q) = ix2 (0 : Fin 1) q := by
    funext a
    apply Fin.ext
    match a with
    | ⟨0, _⟩ => show win0_2.index t (0 : Fin 2) * 1 + 1 * 0 = 0; rw [e0]
    | ⟨1, _⟩ => show win0_2.index t (1 : Fin 2) * 64 + 1 * q.val = q.val; rw [e1]; omega
  rw [bias_block, read2_apply, hemb]
  refine shapeCast_apply _ shapeCasts_S64_S1x64 _ (ix1 q) ?_
  rw [Shape.rowMajor_val_one, Shape.rowMajor_val_two]
  show q.val = 0 * 64 + q.val
  omega

end Cert.KernelIdeal.Hand

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.Payload.lean ====
/-
  What the kernel body computes from its three loaded blocks, read at an entry.

  The body multiplies a block of 25000 rows of the features by the whole [64, 64] weight block into a zero accumulator and adds
  the [1, 64] bias block broadcast down the rows.  Read at (p, q) that is  Σ_k x(p, k) · w(k, q) + b(0, q):  the product is the
  textbook sum (a plain matmul into the zero splat), the shape casts to the same shape change nothing, and the broadcast of a
  one-row block reads its only row.
-/
import proofs.«168241_j47364899340492_1_alg».proof.Proof.Gen.KernelIdeal.Skeleton
import proofs.«168241_j47364899340492_1_alg».proof.Proof.LibPlainMatmul
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The broadcast of the one-row bias block down 25000 rows, read at (p, q), is the row's entry q. -/
theorem bias_rows_apply (y : S1x64.Idx → EReal) (p : Fin 25000) (q : Fin 64) :
    broadcastTo S25000x64 y broadcasts_S1x64_S25000x64 (ix2 p q) = y (ix2 (0 : Fin 1) q) := by
  refine broadcastTo_apply y broadcasts_S1x64_S25000x64 (ix2 p q) (ix2 (0 : Fin 1) q) fun a => ?_
  match a with
  | ⟨0, _⟩ => show (0 : Nat) = if (1 : Nat) = 1 then 0 else p.val; rw [if_pos rfl]
  | ⟨1, _⟩ => show q.val = if (64 : Nat) = 1 then 0 else q.val; rw [if_neg (by decide)]

/-- The body's stored value at (p, q): the block's row p against the weights' column q, plus the bias entry q. -/
theorem pay_apply (x0 : Vec Ideal S25000x64 .bf16) (x1 : Vec Ideal S64x64 .bf16) (x2 : Vec Ideal S1x64 .f32)
    (p : Fin 25000) (q : Fin 64) :
    k0_pay1 (F := Ideal) x0 x1 x2 (ix2 p q)
      = (∑ k : Fin 64, x0 (ix2 p k) * x1 (ix2 k q)) + x2 (ix2 (0 : Fin 1) q) := by
  unfold k0_pay1
  simp only [shapeCast_self]
  rw [ValueIdx.addf_apply, bias_rows_apply]
  exact congrArg (· + x2 (ix2 (0 : Fin 1) q))
    (Cert.PlainMatmul.matmul_zero_apply dot_S25000x64_S64x64_S25000x64_1_0_0_1_n_n.wf none x0 x1 p q)

end Cert.KernelIdeal.Hand

end
-- ==== Proof.Body.lean ====
/-
  What one grid point leaves in the output block, as a function of the three blocks it loads.

  The body stores one whole [25000, 64] block, computed from whole loads of its three input blocks; the write-back moves all of
  it.  Read at (p, q) the stored value is  Σ_k x(p, k) · w(k, q) + b(0, q).
-/
import proofs.«168241_j47364899340492_1_alg».proof.Proof.Gen.KernelIdeal.Frame
import proofs.«168241_j47364899340492_1_alg».proof.Proof.Grid
import proofs.«168241_j47364899340492_1_alg».proof.Proof.Payload

noncomputable section

namespace Cert.KernelIdeal.Hand

open Cert.KernelIdeal Cert.KernelIdeal.Gen Idealize.ShloMosaic Idealize.ShloMosaic.TcCoe Idealize.SL.Sem
open Idealize.ShloMosaic.ValueIdx

/-- The output buffer after the body is the body's one stored value of the three loaded blocks. -/
theorem out_eq (x0 : Vec Ideal S25000x64 .bf16) (x1 : Vec Ideal S64x64 .bf16) (x2 : Vec Ideal S1x64 .f32) :
    out0_3 (F := Ideal) x0 x1 x2 = k0_pay1 (F := Ideal) x0 x1 x2 := by
  unfold out0_3
  rw [View.canon_unit_zero hz]
  simp only [View.ld_unit_zero (S := S25000x64) hz, View.ld_unit_zero (S := S64x64) hz, View.ld_unit_zero (S := S1x64) hz]

/-- What point t writes back, read at (p, q): row p of the feature block against column q of the weight block, plus the bias
    block's entry q. -/
theorem written_apply (t : Fin cfg0.N) (x0 : Vec Ideal S25000x64 .bf16) (x1 : Vec Ideal S64x64 .bf16)
    (x2 : Vec Ideal S1x64 .f32) (p : Fin 25000) (q : Fin 64) :
    ((cfg0.win 3).cut (grid0.coords t) (out0_3 (F := Ideal) x0 x1 x2) : S25000x64.Idx → EReal) (ix2 p q)
      = (∑ k : Fin 64, x0 (ix2 p k) * x1 (ix2 k q)) + x2 (ix2 (0 : Fin 1) q) := by
  rw [out_eq]
  exact pay_apply x0 x1 x2 p q

end Cert.KernelIdeal.Hand

end
-- ==== Proof.Projection.lean ====
/-
  The dense tail of a graph-convolution layer, as ONE function of three arrays.

  With A the [100000, 64] array of aggregated node features, Wt the [64, 64] transposed weight matrix and b the bias row,
  the layer's result is the [100000, 64] array whose entry (i, j) is

      Σ_k A(i, k) · Wt(k, j)  +  b(j)

  on the extended reals.  Nothing is re-associated, distributed or cancelled anywhere below, so no entry needs to be finite.
-/
import Idealize.ShloMosaic.PureOps.Ideal.Laws
import Idealize.ShloMosaic.Lib.ValueIdx

noncomputable section

namespace Cert.Projection

open Idealize.ShloMosaic Idealize.ShloMosaic.ValueIdx

/-- Row i of A against column j of Wt, plus entry j of the bias. -/
def proj (A : (⟨2, ![100000, 64]⟩ : Shape).Idx → EReal) (Wt : (⟨2, ![64, 64]⟩ : Shape).Idx → EReal)
    (b : (⟨1, ![64]⟩ : Shape).Idx → EReal) : (⟨2, ![100000, 64]⟩ : Shape).Idx → EReal :=
  fun i => (∑ k : Fin 64, A (ix2 (i 0) k) * Wt (ix2 k (i 1))) + b (ix1 (i 1))

/-- The layer's result read at (p, q). -/
theorem proj_apply (A : (⟨2, ![100000, 64]⟩ : Shape).Idx → EReal) (Wt : (⟨2, ![64, 64]⟩ : Shape).Idx → EReal)
    (b : (⟨1, ![64]⟩ : Shape).Idx → EReal) (p : Fin 100000) (q : Fin 64) :
    proj A Wt b (ix2 p q) = (∑ k : Fin 64, A (ix2 p k) * Wt (ix2 k q)) + b (ix1 q) := rfl

end Cert.Projection

end
-- ==== Proof.Blocks.lean ====
/-
  From the four blocks to the whole array.

  What point t writes back is block t of the layer's function of the aggregated features, the transposed weights and the bias;
  the four blocks tile the 100000 rows (row r lies in block r / 25000); so the result array ends holding that function.
-/
import proofs.«168241_j47364899340492_1_alg».proof.Proof.Gen.KernelIdeal.Value
import proofs.«168241_j47364899340492_1_alg».proof.Proof.BlockReads
import proofs.«168241_j47364899340492_1_alg».proof.Proof.Body
import proofs.«168241_j47364899340492_1_alg».proof.Proof.Projection
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Projection Cert.KernelIdeal.Entry

variable (m : (ℓ : Loc nD τ sig) → Buf (Elt Ideal) ℓ) (ρ : Dev nD → PrngReg)

/-- A block of the result array at point t, read at (p, q), is the array at the block's embedding of (p, q). -/
theorem read3_apply (t : Fin cfg0.N) (G : S100000x64.Idx → EReal) (p : Fin 25000) (q : Fin 64) :
    (((cfg0.win 3).blk t).view.read (Elt Ideal) G : S25000x64.Idx → EReal) (ix2 p q)
      = G (((cfg0.win 3).blk t).view.emb (ix2 p q)) := rfl

/-- WHAT POINT t WRITES BACK is block t of the layer's function of the aggregated features, the transposed weights and the bias. -/
theorem flushed_eq (c : Dev nD) (t : Fin cfg0.N) :
    (dats m 0 c).flushed 3 t
      = ((cfg0.win 3).blk t).view.read (Elt Ideal) (proj (agg m c) (wt m c) (m ((c : Thread nD τ).loc main_arg4))) := by
  rw [Cert.KernelIdeal.Value.flushed3]
  obtain ⟨-, -, -, -, -, -, e0, e1⟩ := idx_facts t
  funext j
  obtain ⟨p, q, rfl⟩ : ∃ (p : Fin 25000) (q : Fin 64), j = ix2 p q := ⟨j 0, j 1, eq_ix2 j⟩
  have ht : t.val < 4 := lt_of_lt_of_eq t.isLt N_0
  have hr : 25000 * t.val + p.val < 100000 := by have := p.isLt; omega
  have hemb : ((cfg0.win 3).blk t).view.emb (ix2 p q) = ix2 (⟨25000 * t.val + p.val, hr⟩ : Fin 100000) q := by
    funext a
    apply Fin.ext
    match a with
    | ⟨0, _⟩ => show win0_3.index t (0 : Fin 2) * 25000 + 1 * p.val = 25000 * t.val + p.val; rw [e0]; omega
    | ⟨1, _⟩ => show win0_3.index t (1 : Fin 2) * 64 + 1 * q.val = q.val; rw [e1]; omega
  refine (written_apply t (iblk m c 0 t) (iblk m c 1 t) (iblk m c 2 t) p q).trans ?_
  have hfeat := fun k : Fin 64 => feat_block_apply m c t p k ⟨25000 * t.val + p.val, hr⟩ rfl
  rw [read3_apply, hemb, proj_apply, bias_block_apply m c t q]
  simp only [hfeat, wt_block_apply m c t]

/-- An index of the result array is in point t's block iff each coordinate is in the block's range on its axis. -/
theorem mem_blk (t : Fin cfg0.N) (i : S100000x64.Idx) :
    i ∈ ((cfg0.win 3).blk t).view.set ↔ ∀ a : Fin 2, win0_3.index t a * S25000x64.size a ≤ (i a).val
      ∧ (i a).val < win0_3.index t a * S25000x64.size a + S25000x64.size a := by
  show i ∈ ((View.whole main_v52).slice (win0_3.rect t)).set ↔ _
  rw [View.set_slice_whole, Rect.mem_set_unit]
  exact Iff.rfl

/-- Every index of the result array lies in some point's block: row r in the block of point r / 25000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 25000, by rw [show cfg0.N = 4 from N_0]; omega⟩
  obtain ⟨-, -, -, -, -, -, e0, e1⟩ := idx_facts t
  refine ⟨t, flush0_3 t, ?_⟩
  rw [mem_blk]
  intro a
  match a with
  | ⟨0, _⟩ =>
    show win0_3.index t (0 : Fin 2) * 25000 ≤ (i 0).val ∧ (i 0).val < win0_3.index t (0 : Fin 2) * 25000 + 25000
    rw [e0]; show (i 0).val / 25000 * 25000 ≤ (i 0).val ∧ (i 0).val < (i 0).val / 25000 * 25000 + 25000; omega
  | ⟨1, _⟩ =>
    show win0_3.index t (1 : Fin 2) * 64 ≤ (i 1).val ∧ (i 1).val < win0_3.index t (1 : Fin 2) * 64 + 64
    rw [e1]; omega

/-- THE RESULT ARRAY after the run is the layer's function of the aggregated features, the transposed weights and the bias. -/
theorem final (c : Dev nD) :
    (dats m 0 c).arrAt 3 cfg0.N = proj (agg m c) (wt m c) (m ((c : Thread nD τ).loc main_arg4)) :=
  (dats m 0 c).arrAt_eq_of_cover 3 (proj (agg m c) (wt m c) (m ((c : Thread nD τ).loc main_arg4)))
    (fun t _ => flushed_eq m c t) cover

/-- The kernel's run, read: the result array at the layer's function, the arguments unchanged. -/
theorem run : θ_run defs (onTc (τ := τ) (main (F := Ideal))) ⟨m, fun _ => 0, ρ⟩ fun r => ∀ c : Dev nD,
      r.2.mem ((c : Thread nD τ).loc main_v52) = proj (agg m c) (wt m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Hand

end
-- ==== Proof.Reference.lean ====
/-
  The reference's last stage is the layer's function of its two earlier stages and the bias.

  The reference ends with  dot_general(aggregated, transposed weights) + bias broadcast to every row.  Read at (p, q): the
  dot_general is Σ_k aggregated(p, k) · weightsᵀ(k, q), and the two broadcasts of the bias (to one row, then down the rows) read
  entry q of the bias.  The aggregated features and the transposed weights are left as the reference's own stages, unopened.
-/
import proofs.«168241_j47364899340492_1_alg».proof.Proof.Gen.ReferenceIdeal.Read
import proofs.«168241_j47364899340492_1_alg».proof.Proof.Projection

noncomputable section

namespace Cert.ReferenceIdeal.Hand

open Cert.ReferenceIdeal Cert.ReferenceIdeal.Read Idealize.ShloMosaic Idealize.ShloMosaic.ValueIdx Cert.Projection

/-- The reference's result is the layer's function of its aggregated-features stage, its transposed-weights stage and the bias. -/
theorem result_is_proj (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) :
    val_main_v52 (F := Ideal) x0 x1 x2 x3 x4
      = proj (val_main_v47 (F := Ideal) x0 x1 x2) (val_main_v48 (F := Ideal) x3) x4 := by
  funext i
  obtain ⟨p, q, rfl⟩ : ∃ (p : Fin 100000) (q : Fin 64), i = ix2 p q := ⟨i 0, i 1, eq_ix2 i⟩
  have el : ∀ k : Fin 64, lidx_main_v49 (ix2 p q) k = ix2 p k := fun k =>
    funext fun a => Fin.ext (by match a with | ⟨0, _⟩ => rfl | ⟨1, _⟩ => rfl)
  have er : ∀ k : Fin 64, ridx_main_v49 (ix2 p q) k = ix2 k q := fun k =>
    funext fun a => Fin.ext (by match a with | ⟨0, _⟩ => rfl | ⟨1, _⟩ => rfl)
  have eb : idx_main_v50 (idx_main_v51 (ix2 p q)) = ix1 q :=
    funext fun a => Fin.ext (by match a with | ⟨0, _⟩ => rfl)
  rw [val_main_v52_apply, val_main_v49_apply, val_main_v51_apply, val_main_v50_apply, proj_apply, eb]
  simp only [el, er]
  rfl

end Cert.ReferenceIdeal.Hand

end
-- ==== Proof.lean ====
/-
  A graph-convolution layer whose dense tail runs as a tiled kernel, against the same layer written with one matrix product.

  Both programs first build, on the host and by the same operations in the same order, the aggregated node features A
  (edge lists with self loops; degree by scatter-add; inverse square-root degree where the degree is positive, zero elsewhere;
  per-edge normalisation; gather of the feature rows, scaling, scatter-add into the target nodes) and the transposed weights Wt.
  The reference then returns  A · Wt + bias  by one dot_general and a broadcast.  The kernel casts A and Wt to bf16 — the identity
  on the extended reals —, and a grid of four points computes rows 25000·t … 25000·t + 24999 of  A · Wt + bias  at point t: a plain
  matmul into a zero accumulator plus the bias row broadcast down the block.

  Read at an entry (i, j) both results are  Σ_k A(i, k) · Wt(k, j) + bias(j)  on the extended reals.  Nothing is re-associated,
  distributed or cancelled, so the finiteness of the inputs is never used, and the prefix that computes A is never opened: the
  kernel's copy of it is matched, stretch by stretch, with the reference's stages of the same argument arrays.

  The frames of the two kernel programs are the generated ones; the reference's frame is its generated run with the result
  dropped; the idealization rewrote no operation, so there is nothing to preserve.
-/
import proofs.«168241_j47364899340492_1_alg».proof.Defs
import proofs.«168241_j47364899340492_1_alg».proof.Proof.Gen.Kernel
import proofs.«168241_j47364899340492_1_alg».proof.Proof.Gen.Kernel.Skeleton
import proofs.«168241_j47364899340492_1_alg».proof.Proof.Gen.Kernel.Launch
import proofs.«168241_j47364899340492_1_alg».proof.Proof.Gen.Kernel.Points
import proofs.«168241_j47364899340492_1_alg».proof.Proof.Gen.Kernel.Frame
import proofs.«168241_j47364899340492_1_alg».proof.Proof.Gen.KernelIdeal
import proofs.«168241_j47364899340492_1_alg».proof.Proof.Gen.KernelIdeal.Skeleton
import proofs.«168241_j47364899340492_1_alg».proof.Proof.Gen.KernelIdeal.Launch
import proofs.«168241_j47364899340492_1_alg».proof.Proof.Gen.KernelIdeal.Points
import proofs.«168241_j47364899340492_1_alg».proof.Proof.Gen.KernelIdeal.Frame
import proofs.«168241_j47364899340492_1_alg».proof.Proof.Gen.ReferenceIdeal
import proofs.«168241_j47364899340492_1_alg».proof.Proof.Gen.Pre_finite_inputs
import proofs.«168241_j47364899340492_1_alg».proof.Proof.Gen.KernelIdeal.Value
import proofs.«168241_j47364899340492_1_alg».proof.Proof.Gen.ReferenceIdeal.Run
import proofs.«168241_j47364899340492_1_alg».proof.Proof.Gen.ReferenceIdeal.Read
import proofs.«168241_j47364899340492_1_alg».proof.Proof.Blocks
import proofs.«168241_j47364899340492_1_alg».proof.Proof.Reference
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at  Σ_k A(i, k) · Wt(k, j) + bias(j),  A and Wt the reference's own stages of the
    argument arrays on which the two memories agree. -/
theorem algebraic : Cert.algebraic_KernelIdeal_ReferenceIdeal := by
  intro m ρ m' ρ' _ hagree
  refine ⟨fun c => Cert.Projection.proj (Cert.KernelIdeal.Entry.agg m c) (Cert.KernelIdeal.Entry.wt m c)
      (m ((c.tc : Thread Cert.KernelIdeal.nD Cert.KernelIdeal.τ).loc Cert.KernelIdeal.main_arg4)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.Hand.result_is_proj,
    (hagree c).1, (hagree c).2.1, (hagree c).2.2.1, (hagree c).2.2.2.1, (hagree c).2.2.2.2]
  beta_reduce
  rw [Cert.KernelIdeal.Entry.agg_def, Cert.KernelIdeal.Entry.wt_def]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
